-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S4096 .f32) (main_arg5 : FVec F S4096x1024 .f32) (main_arg6 : FVec F S4096 .f32) (main_arg7 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S8192x1024 .f32) (main_arg3 : FVec F S4096x1024 .f32) (main_arg4 : FVec F S4096 .f32) (main_arg5 : FVec F S4096x1024 .f32) (main_arg6 : FVec F S4096 .f32) (main_arg7 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S1x4096, .f32⟩
  | .hbm, ⟨11, _⟩ => ⟨S4096x1024, .bf16⟩
  | .hbm, ⟨12, _⟩ => ⟨S4096x1024, .bf16⟩
  | .hbm, ⟨13, _⟩ => ⟨S8192x1024, .f32⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096_S1x4096 : S4096.ShapeCasts S1x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.CellSpec.lean ====
/-
  One step of an LSTM cell, as mathematics on the extended reals.

  For a batch row `b` and a gate column `g` the pre-activation is
      z(b, g) = (Σₖ e(b,k)·Wx(g,k) + Σₖ h(b,k)·Wh(g,k)) + β(g),
  `e` the input and `h` the previous hidden state, both [8192, 1024], `Wx` and `Wh` the weights, both
  [4096, 1024] and contracted along their second axis, and `β` the sum of the three bias vectors. The 4096
  gate columns are four bands of 1024 — forget, input, output, candidate — and at hidden column `q`
      c'(b,q) = σ(z(b, q)) · c(b,q) + σ(z(b, q + 1024)) · tanh(z(b, q + 3072))
      h'(b,q) = σ(z(b, q + 2048)) · tanh(c'(b,q)),
  with σ the logistic function x ↦ 1 / (1 + e^(−x)), its limits 0 and 1 at −∞ and +∞ included.

  Two spellings of this meet here. One adds the three biases to each other first and the result to the two
  products; the other adds them to the products one after the other. Addition on the extended reals is
  associative (⊥ absorbs, and ⊤ absorbs everything but ⊥), so the two agree at every input, finite or
  not: `bias_assoc`. One spells σ as a single operation and the other as the quotient
  1 / (1 + exp (−x)) over the float word of 1.0; the operation is that quotient by definition:
  `logistic_spelt`.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- Activations `[8192, 1024]`. -/
abbrev Acts : Type := (⟨2, ![8192, 1024]⟩ : Shape).Idx → EReal
/-- Weights `[4096, 1024]`: one row per gate column. -/
abbrev Wts : Type := (⟨2, ![4096, 1024]⟩ : Shape).Idx → EReal
/-- A bias vector `[4096]`: one entry per gate column. -/
abbrev Bias : Type := (⟨1, ![4096]⟩ : Shape).Idx → EReal

/-! ## The four bands of gate columns -/

/-- The forget gate's column for hidden column `q`. -/
def colF (q : Fin 1024) : Fin 4096 := ⟨q.val, by have := q.isLt; omega⟩
/-- The input gate's column. -/
def colI (q : Fin 1024) : Fin 4096 := ⟨q.val + 1024, by have := q.isLt; omega⟩
/-- The output gate's column. -/
def colO (q : Fin 1024) : Fin 4096 := ⟨q.val + 2048, by have := q.isLt; omega⟩
/-- The candidate's column. -/
def colC (q : Fin 1024) : Fin 4096 := ⟨q.val + 3072, by have := q.isLt; omega⟩

/-! ## The cell -/

/-- The three bias vectors summed, per gate column. -/
def biasSum (bx bh be : Bias) : Fin 4096 → EReal := fun g => (bx (ix1 g) + bh (ix1 g)) + be (ix1 g)

/-- The pre-activation of batch row `b` at gate column `g`: the two rows' products with the column's weight
    rows, plus the column's bias. -/
def preact (e h : Acts) (wx wh : Wts) (β : Fin 4096 → EReal) (b : Fin 8192) (g : Fin 4096) : EReal :=
  ((∑ k : Fin 1024, e (ix2 b k) * wx (ix2 g k)) + (∑ k : Fin 1024, h (ix2 b k) * wh (ix2 g k))) + β g

/-- The new cell state from the forget, input and candidate pre-activations and the old state. -/
def cellOf (zf zi zc cp : EReal) : EReal := Ideal.logistic zf * cp + Ideal.logistic zi * Ideal.tanh zc

/-- The new hidden state from the output gate's pre-activation and the new cell state. -/
def hiddenOf (zo cn : EReal) : EReal := Ideal.logistic zo * Ideal.tanh cn

/-- The new cell state at batch row `b`, hidden column `q`. -/
def newCellAt (e h c : Acts) (wx wh : Wts) (β : Fin 4096 → EReal) (b : Fin 8192) (q : Fin 1024) : EReal :=
  cellOf (preact e h wx wh β b (colF q)) (preact e h wx wh β b (colI q)) (preact e h wx wh β b (colC q)) (c (ix2 b q))

/-- The new hidden state at batch row `b`, hidden column `q`. -/
def newHiddenAt (e h c : Acts) (wx wh : Wts) (β : Fin 4096 → EReal) (b : Fin 8192) (q : Fin 1024) : EReal :=
  hiddenOf (preact e h wx wh β b (colO q)) (newCellAt e h c wx wh β b q)

/-- The new cell state, the whole array. -/
def newCell (e h c : Acts) (wx wh : Wts) (β : Fin 4096 → EReal) : Acts := fun i => newCellAt e h c wx wh β (i 0) (i 1)

/-- The new hidden state, the whole array. -/
def newHidden (e h c : Acts) (wx wh : Wts) (β : Fin 4096 → EReal) : Acts := fun i => newHiddenAt e h c wx wh β (i 0) (i 1)

/-! ## The two laws -/

/-- Adding three biases one after the other to a sum is adding their sum to it. -/
theorem bias_assoc (s x y z : EReal) : ((s + x) + y) + z = s + ((x + y) + z) := by
  rw [add_assoc, add_assoc, add_assoc]

/-- The float word of `1.0` denotes the real number one. -/
theorem one_word : Ideal.ofBits .f32 0x3F800000#32 = 1 := by
  simp [Ideal.ofBits, Ideal.ieee, -EReal.coe_mul]; norm_num

/-- The logistic function spelt as a quotient over the word of `1.0` is the logistic function. -/
theorem logistic_spelt (x : EReal) :
    Ideal.div (Ideal.ofBits .f32 0x3F800000#32) (Ideal.ofBits .f32 0x3F800000#32 + Ideal.exp (-x)) = Ideal.logistic x := by
  rw [one_word]; rfl

end Cert.Lstm

end
-- ==== Proof.CellReference.lean ====
/-
  The reference program computes the cell of CellSpec.

  Its pre-activation is the two contractions, then the three biases added one after the other, each bias
  broadcast along the batch axis; the four gate bands are slices of that [8192, 4096] array at column offsets
  0, 1024, 2048, 3072; the logistic function is spelt 1 / (1 + exp (−x)). Read index by index, the only
  difference from the specification is the order in which the biases are added (`bias_assoc`) and the
  spelling of the logistic function (`logistic_spelt`).
-/
import proofs.«168543_j33114197852278_2_alg».proof.Proof.Gen.ReferenceIdeal.Read
import proofs.«168543_j33114197852278_2_alg».proof.Proof.CellSpec

noncomputable section

namespace Cert.Lstm.Reference

open Idealize.ShloMosaic Idealize.ShloMosaic.ValueIdx Cert.ReferenceIdeal Cert.ReferenceIdeal.Read Cert.Lstm

/-- The reference's pre-activation array at row `b`, gate column `g`. -/
theorem preact_eq (x0 x1 : Acts) (x3 : Wts) (x4 : Bias) (x5 : Wts) (x6 x7 : Bias) (b : Fin 8192) (g : Fin 4096) :
    val_main_v11 (F := Ideal) x0 x1 x3 x4 x5 x6 x7 (ix2 b g) = preact x0 x1 x3 x5 (biasSum x4 x6 x7) b g := by
  have el0 : ∀ k : Fin 1024, lidx_main_v0 (ix2 b g) k = ix2 b k := fun k =>
    funext fun a => Fin.ext (by match a with | ⟨0, _⟩ => rfl | ⟨1, _⟩ => rfl)
  have er0 : ∀ k : Fin 1024, ridx_main_v0 (ix2 b g) k = ix2 g k := fun k =>
    funext fun a => Fin.ext (by match a with | ⟨0, _⟩ => rfl | ⟨1, _⟩ => rfl)
  have el1 : ∀ k : Fin 1024, lidx_main_v1 (ix2 b g) k = ix2 b k := fun k =>
    funext fun a => Fin.ext (by match a with | ⟨0, _⟩ => rfl | ⟨1, _⟩ => rfl)
  have er1 : ∀ k : Fin 1024, ridx_main_v1 (ix2 b g) k = ix2 g k := fun k =>
    funext fun a => Fin.ext (by match a with | ⟨0, _⟩ => rfl | ⟨1, _⟩ => rfl)
  have eb4 : idx_main_v3 (idx_main_v4 (ix2 b g)) = ix1 g := funext fun a => Fin.ext (by match a with | ⟨0, _⟩ => rfl)
  have eb6 : idx_main_v6 (idx_main_v7 (ix2 b g)) = ix1 g := funext fun a => Fin.ext (by match a with | ⟨0, _⟩ => rfl)
  have eb7 : idx_main_v9 (idx_main_v10 (ix2 b g)) = ix1 g := funext fun a => Fin.ext (by match a with | ⟨0, _⟩ => rfl)
  rw [val_main_v11_apply, val_main_v8_apply, val_main_v5_apply, val_main_v2_apply, val_main_v0_apply, val_main_v1_apply,
    val_main_v4_apply, val_main_v3_apply, val_main_v7_apply, val_main_v6_apply, val_main_v10_apply, val_main_v9_apply,
    eb4, eb6, eb7]
  simp only [el0, er0, el1, er1]
  exact bias_assoc _ _ _ _

/-! ## The four bands: slices of the pre-activation array -/

/-- The slice at column offset 0 is the forget gate's band. -/
theorem bandF_eq (x0 x1 : Acts) (x3 : Wts) (x4 : Bias) (x5 : Wts) (x6 x7 : Bias) (b : Fin 8192) (q : Fin 1024) :
    val_main_v12 (F := Ideal) x0 x1 x3 x4 x5 x6 x7 (ix2 b q) = preact x0 x1 x3 x5 (biasSum x4 x6 x7) b (colF q) := by
  have e : idx_main_v12 (ix2 b q) = ix2 b (colF q) :=
    funext fun a => Fin.ext (by match a with | ⟨0, _⟩ => rfl | ⟨1, _⟩ => rfl)
  rw [val_main_v12_apply, e, preact_eq]

/-- The slice at column offset 1024 is the input gate's band. -/
theorem bandI_eq (x0 x1 : Acts) (x3 : Wts) (x4 : Bias) (x5 : Wts) (x6 x7 : Bias) (b : Fin 8192) (q : Fin 1024) :
    val_main_v13 (F := Ideal) x0 x1 x3 x4 x5 x6 x7 (ix2 b q) = preact x0 x1 x3 x5 (biasSum x4 x6 x7) b (colI q) := by
  have e : idx_main_v13 (ix2 b q) = ix2 b (colI q) :=
    funext fun a => Fin.ext (by match a with | ⟨0, _⟩ => rfl | ⟨1, _⟩ => exact Nat.add_comm _ _)
  rw [val_main_v13_apply, e, preact_eq]

/-- The slice at column offset 2048 is the output gate's band. -/
theorem bandO_eq (x0 x1 : Acts) (x3 : Wts) (x4 : Bias) (x5 : Wts) (x6 x7 : Bias) (b : Fin 8192) (q : Fin 1024) :
    val_main_v14 (F := Ideal) x0 x1 x3 x4 x5 x6 x7 (ix2 b q) = preact x0 x1 x3 x5 (biasSum x4 x6 x7) b (colO q) := by
  have e : idx_main_v14 (ix2 b q) = ix2 b (colO q) :=
    funext fun a => Fin.ext (by match a with | ⟨0, _⟩ => rfl | ⟨1, _⟩ => exact Nat.add_comm _ _)
  rw [val_main_v14_apply, e, preact_eq]

/-- The slice at column offset 3072 is the candidate's band. -/
theorem bandC_eq (x0 x1 : Acts) (x3 : Wts) (x4 : Bias) (x5 : Wts) (x6 x7 : Bias) (b : Fin 8192) (q : Fin 1024) :
    val_main_v15 (F := Ideal) x0 x1 x3 x4 x5 x6 x7 (ix2 b q) = preact x0 x1 x3 x5 (biasSum x4 x6 x7) b (colC q) := by
  have e : idx_main_v15 (ix2 b q) = ix2 b (colC q) :=
    funext fun a => Fin.ext (by match a with | ⟨0, _⟩ => rfl | ⟨1, _⟩ => exact Nat.add_comm _ _)
  rw [val_main_v15_apply, e, preact_eq]

/-! ## The three gates: the logistic function spelt as a quotient -/

/-- The forget gate. -/
theorem gateF_eq (x0 x1 : Acts) (x3 : Wts) (x4 : Bias) (x5 : Wts) (x6 x7 : Bias) (b : Fin 8192) (q : Fin 1024) :
    val_main_v21 (F := Ideal) x0 x1 x3 x4 x5 x6 x7 (ix2 b q) = Ideal.logistic (preact x0 x1 x3 x5 (biasSum x4 x6 x7) b (colF q)) := by
  rw [val_main_v21_apply, val_main_v20_apply, val_main_cst_0_apply, val_main_v19_apply, val_main_v18_apply, val_main_cst_apply,
    val_main_v17_apply, val_main_v16_apply, bandF_eq]
  exact logistic_spelt _

/-- The input gate. -/
theorem gateI_eq (x0 x1 : Acts) (x3 : Wts) (x4 : Bias) (x5 : Wts) (x6 x7 : Bias) (b : Fin 8192) (q : Fin 1024) :
    val_main_v27 (F := Ideal) x0 x1 x3 x4 x5 x6 x7 (ix2 b q) = Ideal.logistic (preact x0 x1 x3 x5 (biasSum x4 x6 x7) b (colI q)) := by
  rw [val_main_v27_apply, val_main_v26_apply, val_main_cst_2_apply, val_main_v25_apply, val_main_v24_apply, val_main_cst_1_apply,
    val_main_v23_apply, val_main_v22_apply, bandI_eq]
  exact logistic_spelt _

/-- The output gate. -/
theorem gateO_eq (x0 x1 : Acts) (x3 : Wts) (x4 : Bias) (x5 : Wts) (x6 x7 : Bias) (b : Fin 8192) (q : Fin 1024) :
    val_main_v33 (F := Ideal) x0 x1 x3 x4 x5 x6 x7 (ix2 b q) = Ideal.logistic (preact x0 x1 x3 x5 (biasSum x4 x6 x7) b (colO q)) := by
  rw [val_main_v33_apply, val_main_v32_apply, val_main_cst_4_apply, val_main_v31_apply, val_main_v30_apply, val_main_cst_3_apply,
    val_main_v29_apply, val_main_v28_apply, bandO_eq]
  exact logistic_spelt _

/-! ## The two results -/

/-- The reference's new cell state at row `b`, hidden column `q`. -/
theorem cell_at (x0 x1 x2 : Acts) (x3 : Wts) (x4 : Bias) (x5 : Wts) (x6 x7 : Bias) (b : Fin 8192) (q : Fin 1024) :
    val_main_v37 (F := Ideal) x0 x1 x2 x3 x4 x5 x6 x7 (ix2 b q) = newCellAt x0 x1 x2 x3 x5 (biasSum x4 x6 x7) b q := by
  rw [val_main_v37_apply, val_main_v35_apply, val_main_v36_apply, val_main_v34_apply, gateF_eq, gateI_eq, bandC_eq]
  rfl

/-- The reference's new hidden state at row `b`, hidden column `q`. -/
theorem hidden_at (x0 x1 x2 : Acts) (x3 : Wts) (x4 : Bias) (x5 : Wts) (x6 x7 : Bias) (b : Fin 8192) (q : Fin 1024) :
    val_main_v39 (F := Ideal) x0 x1 x2 x3 x4 x5 x6 x7 (ix2 b q) = newHiddenAt x0 x1 x2 x3 x5 (biasSum x4 x6 x7) b q := by
  rw [val_main_v39_apply, val_main_v38_apply, gateO_eq, cell_at]
  rfl

/-- The reference's second result is the new cell state. -/
theorem cell_eq (x0 x1 x2 : Acts) (x3 : Wts) (x4 : Bias) (x5 : Wts) (x6 x7 : Bias) :
    val_main_v37 (F := Ideal) x0 x1 x2 x3 x4 x5 x6 x7 = newCell x0 x1 x2 x3 x5 (biasSum x4 x6 x7) := by
  funext i
  obtain ⟨b, q, rfl⟩ : ∃ (b : Fin 8192) (q : Fin 1024), i = ix2 b q := ⟨i 0, i 1, eq_ix2 i⟩
  exact cell_at x0 x1 x2 x3 x4 x5 x6 x7 b q

/-- The reference's first result is the new hidden state. -/
theorem hidden_eq (x0 x1 x2 : Acts) (x3 : Wts) (x4 : Bias) (x5 : Wts) (x6 x7 : Bias) :
    val_main_v39 (F := Ideal) x0 x1 x2 x3 x4 x5 x6 x7 = newHidden x0 x1 x2 x3 x5 (biasSum x4 x6 x7) := by
  funext i
  obtain ⟨b, q, rfl⟩ : ∃ (b : Fin 8192) (q : Fin 1024), i = ix2 b q := ⟨i 0, i 1, eq_ix2 i⟩
  exact hidden_at x0 x1 x2 x3 x4 x5 x6 x7 b q

end Cert.Lstm.Reference

end
-- ==== Proof.CellPayload.lean ====
/-
  The kernel body's pre-activation block, read at an index.

  At a grid point the body holds a [256, 1024] block of the input and one of the previous hidden state, the two
  whole weight matrices and the one row of summed biases. It multiplies each activation block by its weight
  matrix along the second axis of both (two matrix products into zero accumulators), adds the two products,
  and adds the bias row broadcast over the 256 rows. So the entry at block row `p`, gate column `g` is
      (Σₖ e(p,k)·Wx(g,k) + Σₖ h(p,k)·Wh(g,k)) + β(0, g).
  Narrowing a float to sixteen bits is the identity on the extended reals, and a cast of a vector to its own
  shape is the identity.
-/
import proofs.«168543_j33114197852278_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Lstm.Kernel

open Idealize.ShloMosaic Idealize.ShloMosaic.ValueIdx Cert.KernelIdeal Cert.KernelIdeal.Gen

/-- The product's left operand is read at the result's row. -/
theorem lhs_row (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl

/-- ... and at the contraction position along its second axis. -/
theorem lhs_contr (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q

/-- The product's right operand is read at the row the result's column names. -/
theorem rhs_row (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl

/-- ... and at the contraction position along its second axis. -/
theorem rhs_contr (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

/-- A [256, 1024] block times a [4096, 1024] matrix along the second axis of both, into a zero accumulator:
    the entry at `(p, g)` is the sum over `k` of the block's row `p` against the matrix's row `g`. -/
theorem matmul_at (x : FVec Ideal S256x1024 .bf16) (w : FVec Ideal S4096x1024 .bf16) (p : Fin 256) (g : Fin 4096) :
    FloatOps.matmul dot_S256x1024_S4096x1024_S256x4096_1_1_0_0_n_n none x w (constant S256x4096 .f32 0x00000000#32) (ix2 p g)
      = ∑ k : Fin 1024, x (ix2 p k) * w (ix2 g k) := by
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p g) ((contrEquiv1 dot_S256x1024_S4096x1024_S256x4096_1_1_0_0_n_n 1024 rfl rfl).symm k) = ix2 p k :=
    funext fun a => Fin.ext (by
      match a with
      | ⟨0, _⟩ => exact lhs_row _ _
      | ⟨1, _⟩ => exact (lhs_contr _ _).trans hk)
  have er : dot_S256x1024_S4096x1024_S256x4096_1_1_0_0_n_n.rhsIdx (ix2 p g) ((contrEquiv1 dot_S256x1024_S4096x1024_S256x4096_1_1_0_0_n_n 1024 rfl rfl).symm k) = ix2 g k :=
    funext fun a => Fin.ext (by
      match a with
      | ⟨0, _⟩ => exact rhs_row _ _
      | ⟨1, _⟩ => exact (rhs_contr _ _).trans hk)
  rw [el, er]

/-- The pre-activation of block row `p` at gate column `g`, from the blocks a grid point holds: an input block,
    a hidden-state block, the two weight matrices and the bias row. -/
def preactBlock (x0 x1 : Vec Ideal S256x1024 .f32) (x3 x4 : Vec Ideal S4096x1024 .bf16) (x5 : Vec Ideal S1x4096 .f32)
    (p : Fin 256) (g : Fin 4096) : EReal :=
  ((∑ k : Fin 1024, x0 (ix2 p k) * x3 (ix2 g k)) + (∑ k : Fin 1024, x1 (ix2 p k) * x4 (ix2 g k))) + x5 (ix2 (0 : Fin 1) g)

/-- The body's pre-activation block at block row `p`, gate column `g`. -/
theorem preact_block_at (x0 x1 : Vec Ideal S256x1024 .f32) (x3 x4 : Vec Ideal S4096x1024 .bf16) (x5 : Vec Ideal S1x4096 .f32)
    (p : Fin 256) (g : Fin 4096) :
    k0_pay1 x0 x1 x3 x4 x5 (ix2 p g) = preactBlock x0 x1 x3 x4 x5 p g := by
  unfold k0_pay1 preactBlock
  show (FloatOps.matmul (F := Ideal) dot_S256x1024_S4096x1024_S256x4096_1_1_0_0_n_n none (truncf (F := Ideal) .bf16 x0 bitsLt_bf16_f32) (shapeCast S4096x1024 x3 shapeCasts_S4096x1024_S4096x1024) (constant S256x4096 .f32 0x00000000#32) (ix2 p g)
      + FloatOps.matmul (F := Ideal) dot_S256x1024_S4096x1024_S256x4096_1_1_0_0_n_n none (truncf (F := Ideal) .bf16 x1 bitsLt_bf16_f32) (shapeCast S4096x1024 x4 shapeCasts_S4096x1024_S4096x1024) (constant S256x4096 .f32 0x00000000#32) (ix2 p g))
      + broadcastTo S256x4096 (shapeCast S1x4096 x5 shapeCasts_S1x4096_S1x4096) broadcasts_S1x4096_S256x4096 (ix2 p g) = _
  rw [matmul_at, matmul_at, shapeCast_self, shapeCast_self, shapeCast_self, broadcastTo_1b_ab_apply]
  rfl

end Cert.Lstm.Kernel

end
-- ==== Proof.CellBlocks.lean ====
/-
  From the blocks the grid points write to the two whole result arrays.

  The grid has 32 points; point `t` holds rows 256·t … 256·t + 255 of the input, of the previous hidden state
  and of the previous cell state, the whole of both weight matrices and the whole bias row, and writes the same
  256 rows of the two results. What it writes at block row `p`, hidden column `q` is the cell of CellSpec at
  batch row 256·t + p: the block's rows are the arrays' rows, the weights and the bias are not cut at all.
  The 32 row bands tile the 8192 rows, so each result array ends holding the specification's function of the
  arrays as the region finds them. Of those, the weights are the argument matrices narrowed to sixteen bits —
  the identity on the extended reals — and the bias row is the three bias vectors summed and laid out as
  one row.
-/
import proofs.«168543_j33114197852278_2_alg».proof.Proof.Gen.KernelIdeal.Value
import proofs.«168543_j33114197852278_2_alg».proof.Proof.CellSpec
import proofs.«168543_j33114197852278_2_alg».proof.Proof.CellPayload
import Idealize.ShloMosaic.Lib.StableHlo.Run
import Idealize.ShloMosaic.Lib.ValueLayout

noncomputable section

namespace Cert.Lstm.Kernel

open Idealize.ShloMosaic Idealize.ShloMosaic.ValueIdx Idealize.ShloMosaic.TcCoe Idealize.SL.Sem
open Cert.KernelIdeal Cert.KernelIdeal.Gen Cert.KernelIdeal.Value Cert.Lstm
open Idealize.ShloMosaic.Pipeline (Dat)

/-- Every access of the body starts at the origin of its buffer. -/
theorem origin : (![0, 0] : Fin 2 → Nat) = fun _ => 0 := funext fun a => by fin_cases a <;> rfl

/-! ## What a point leaves in its two output blocks -/

/-- The new cell state's block at block row `p`, hidden column `q`, from the point's blocks. -/
theorem cell_block (x0 x1 x2 : Vec Ideal S256x1024 .f32) (x3 x4 : Vec Ideal S4096x1024 .bf16) (x5 : Vec Ideal S1x4096 .f32)
    (p : Fin 256) (q : Fin 1024) :
    out0_7 x0 x1 x2 x3 x4 x5 (ix2 p q)
      = cellOf (preactBlock x0 x1 x3 x4 x5 p (colF q)) (preactBlock x0 x1 x3 x4 x5 p (colI q))
          (preactBlock x0 x1 x3 x4 x5 p (colC q)) (x2 (ix2 p q)) := by
  unfold out0_7
  rw [canon7_eq]
  simp only [View.ld_unit_zero (S := S256x1024) origin, View.ld_unit_zero (S := S4096x1024) origin,
    View.ld_unit_zero (S := S1x4096) origin]
  have e0 : ix7_0 (ix2 p q) = ix2 p (colF q) := funext fun a => Fin.ext (by match a with | ⟨0, _⟩ => rfl | ⟨1, _⟩ => rfl)
  have e1 : ix7_1 (ix2 p q) = ix2 p q := funext fun a => Fin.ext (by match a with | ⟨0, _⟩ => rfl | ⟨1, _⟩ => rfl)
  have e2 : ix7_2 (ix2 p q) = ix2 p (colI q) := funext fun a => Fin.ext (by match a with | ⟨0, _⟩ => rfl | ⟨1, _⟩ => rfl)
  have e3 : ix7_3 (ix2 p q) = ix2 p (colC q) := funext fun a => Fin.ext (by match a with | ⟨0, _⟩ => rfl | ⟨1, _⟩ => rfl)
  show FloatOps.addf (FloatOps.mulf (FloatOps.logistic (k0_pay1 x0 x1 x3 x4 x5 (ix7_0 (ix2 p q)))) (x2 (ix7_1 (ix2 p q))))
      (FloatOps.mulf (FloatOps.logistic (k0_pay1 x0 x1 x3 x4 x5 (ix7_2 (ix2 p q)))) (FloatOps.tanh (k0_pay1 x0 x1 x3 x4 x5 (ix7_3 (ix2 p q))))) = _
  rw [e0, e1, e2, e3, preact_block_at, preact_block_at, preact_block_at]
  rfl

/-- The new hidden state's block at block row `p`, hidden column `q`, from the point's blocks. -/
theorem hidden_block (x0 x1 x2 : Vec Ideal S256x1024 .f32) (x3 x4 : Vec Ideal S4096x1024 .bf16) (x5 : Vec Ideal S1x4096 .f32)
    (p : Fin 256) (q : Fin 1024) :
    out0_6 x0 x1 x2 x3 x4 x5 (ix2 p q)
      = hiddenOf (preactBlock x0 x1 x3 x4 x5 p (colO q))
          (cellOf (preactBlock x0 x1 x3 x4 x5 p (colF q)) (preactBlock x0 x1 x3 x4 x5 p (colI q))
            (preactBlock x0 x1 x3 x4 x5 p (colC q)) (x2 (ix2 p q))) := by
  unfold out0_6
  rw [canon6_eq]
  simp only [View.ld_unit_zero (S := S256x1024) origin, View.ld_unit_zero (S := S4096x1024) origin,
    View.ld_unit_zero (S := S1x4096) origin]
  have e0 : ix6_0 (ix2 p q) = ix2 p (colO q) := funext fun a => Fin.ext (by match a with | ⟨0, _⟩ => rfl | ⟨1, _⟩ => rfl)
  have e1 : ix6_1 (ix2 p q) = ix2 p (colF q) := funext fun a => Fin.ext (by match a with | ⟨0, _⟩ => rfl | ⟨1, _⟩ => rfl)
  have e2 : ix6_2 (ix2 p q) = ix2 p q := funext fun a => Fin.ext (by match a with | ⟨0, _⟩ => rfl | ⟨1, _⟩ => rfl)
  have e3 : ix6_3 (ix2 p q) = ix2 p (colI q) := funext fun a => Fin.ext (by match a with | ⟨0, _⟩ => rfl | ⟨1, _⟩ => rfl)
  have e4 : ix6_4 (ix2 p q) = ix2 p (colC q) := funext fun a => Fin.ext (by match a with | ⟨0, _⟩ => rfl | ⟨1, _⟩ => rfl)
  show FloatOps.mulf (FloatOps.logistic (k0_pay1 x0 x1 x3 x4 x5 (ix6_0 (ix2 p q))))
      (FloatOps.tanh (FloatOps.addf (FloatOps.mulf (FloatOps.logistic (k0_pay1 x0 x1 x3 x4 x5 (ix6_1 (ix2 p q)))) (x2 (ix6_2 (ix2 p q))))
        (FloatOps.mulf (FloatOps.logistic (k0_pay1 x0 x1 x3 x4 x5 (ix6_3 (ix2 p q)))) (FloatOps.tanh (k0_pay1 x0 x1 x3 x4 x5 (ix6_4 (ix2 p q))))))) = _
  rw [e0, e1, e2, e3, e4, preact_block_at, preact_block_at, preact_block_at, preact_block_at]
  rfl

/-! ## A point's blocks are rows of the arrays -/

/-- When the activation blocks' row `p` is the arrays' row `b`, and the weights and the bias row are the whole
    arrays, the block's pre-activation is the arrays'. -/
theorem preactBlock_of_rows (x0 x1 : Vec Ideal S256x1024 .f32) (x3 x4 : Vec Ideal S4096x1024 .bf16) (x5 : Vec Ideal S1x4096 .f32)
    (e h : Acts) (wx wh : Wts) (β : Fin 4096 → EReal) (p : Fin 256) (b : Fin 8192)
    (h0 : ∀ k : Fin 1024, x0 (ix2 p k) = e (ix2 b k)) (h1 : ∀ k : Fin 1024, x1 (ix2 p k) = h (ix2 b k))
    (h3 : ∀ (g : Fin 4096) (k : Fin 1024), x3 (ix2 g k) = wx (ix2 g k))
    (h4 : ∀ (g : Fin 4096) (k : Fin 1024), x4 (ix2 g k) = wh (ix2 g k))
    (h5 : ∀ g : Fin 4096, x5 (ix2 (0 : Fin 1) g) = β g) (g : Fin 4096) :
    preactBlock x0 x1 x3 x4 x5 p g = preact e h wx wh β b g := by
  unfold preactBlock preact
  simp only [h0, h1, h3, h4, h5]

/-- So the cell-state block at `(p, q)` is the specification's new cell state at `(b, q)`. -/
theorem cell_of_rows (x0 x1 x2 : Vec Ideal S256x1024 .f32) (x3 x4 : Vec Ideal S4096x1024 .bf16) (x5 : Vec Ideal S1x4096 .f32)
    (e h c : Acts) (wx wh : Wts) (β : Fin 4096 → EReal) (p : Fin 256) (q : Fin 1024) (b : Fin 8192)
    (h0 : ∀ k : Fin 1024, x0 (ix2 p k) = e (ix2 b k)) (h1 : ∀ k : Fin 1024, x1 (ix2 p k) = h (ix2 b k))
    (h3 : ∀ (g : Fin 4096) (k : Fin 1024), x3 (ix2 g k) = wx (ix2 g k))
    (h4 : ∀ (g : Fin 4096) (k : Fin 1024), x4 (ix2 g k) = wh (ix2 g k))
    (h5 : ∀ g : Fin 4096, x5 (ix2 (0 : Fin 1) g) = β g) (h2 : x2 (ix2 p q) = c (ix2 b q)) :
    out0_7 x0 x1 x2 x3 x4 x5 (ix2 p q) = newCell e h c wx wh β (ix2 b q) := by
  rw [cell_block, preactBlock_of_rows x0 x1 x3 x4 x5 e h wx wh β p b h0 h1 h3 h4 h5,
    preactBlock_of_rows x0 x1 x3 x4 x5 e h wx wh β p b h0 h1 h3 h4 h5,
    preactBlock_of_rows x0 x1 x3 x4 x5 e h wx wh β p b h0 h1 h3 h4 h5, h2]
  rfl

/-- ... and the hidden-state block at `(p, q)` the specification's new hidden state at `(b, q)`. -/
theorem hidden_of_rows (x0 x1 x2 : Vec Ideal S256x1024 .f32) (x3 x4 : Vec Ideal S4096x1024 .bf16) (x5 : Vec Ideal S1x4096 .f32)
    (e h c : Acts) (wx wh : Wts) (β : Fin 4096 → EReal) (p : Fin 256) (q : Fin 1024) (b : Fin 8192)
    (h0 : ∀ k : Fin 1024, x0 (ix2 p k) = e (ix2 b k)) (h1 : ∀ k : Fin 1024, x1 (ix2 p k) = h (ix2 b k))
    (h3 : ∀ (g : Fin 4096) (k : Fin 1024), x3 (ix2 g k) = wx (ix2 g k))
    (h4 : ∀ (g : Fin 4096) (k : Fin 1024), x4 (ix2 g k) = wh (ix2 g k))
    (h5 : ∀ g : Fin 4096, x5 (ix2 (0 : Fin 1) g) = β g) (h2 : x2 (ix2 p q) = c (ix2 b q)) :
    out0_6 x0 x1 x2 x3 x4 x5 (ix2 p q) = newHidden e h c wx wh β (ix2 b q) := by
  rw [hidden_block, preactBlock_of_rows x0 x1 x3 x4 x5 e h wx wh β p b h0 h1 h3 h4 h5,
    preactBlock_of_rows x0 x1 x3 x4 x5 e h wx wh β p b h0 h1 h3 h4 h5,
    preactBlock_of_rows x0 x1 x3 x4 x5 e h wx wh β p b h0 h1 h3 h4 h5,
    preactBlock_of_rows x0 x1 x3 x4 x5 e h wx wh β p b h0 h1 h3 h4 h5, h2]
  rfl

/-! ## The windows' index maps over the grid -/

/-- Point `t` holds block `(t, 0)` of the three activation arrays and of the two results, and block `(0, 0)`,
    the whole, of the weights and the bias row (decided over the 32 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Every one of the 32 row bands is some point's. -/
theorem idx_onto : ∀ r : Fin 32, ∃ t : Fin cfg0.N, t.val = r.val :=
  (by decide +kernel : ∀ r : Fin 32, ∃ t : Fin grid0.N, t.val = r.val)

variable (m : (ℓ : Loc nD τ sig) → Buf (Elt Ideal) ℓ) (ρ : Dev nD → PrngReg)

/-- The bias row as the region finds it, per gate column. -/
abbrev biasRow (c : Dev nD) : Fin 4096 → EReal := fun g => (V m c main_v2 : S1x4096.Idx → EReal) (ix2 (0 : Fin 1) g)

/-! ## What point `t` writes back is block `t` of the specification's arrays -/

/-- The new cell state. -/
theorem flushed_cell (c : Dev nD) (t : Fin cfg0.N) :
    (dats m 0 c).flushed 7 t = ((cfg0.win 7).blk t).view.read (Elt Ideal)
      (newCell (V m c main_arg0) (V m c main_arg1) (V m c main_arg2) (V m c main_v3) (V m c main_v4) (biasRow m c)) := by
  rw [flushed7]
  obtain ⟨a0, a0', a1, a1', a2, a2', a3, a3', a4, a4', a5, a5', a6, a6', a7, a7'⟩ := idx_facts t
  have ht : t.val < 32 := lt_of_lt_of_eq t.isLt N_0
  funext j
  have hj0 : (j 0).val < 256 := (j 0).isLt
  have hj1 : (j 1).val < 1024 := (j 1).isLt
  obtain ⟨p, hp⟩ : ∃ p : Fin 256, p.val = (j 0).val := ⟨⟨_, hj0⟩, rfl⟩
  obtain ⟨q, hq⟩ : ∃ q : Fin 1024, q.val = (j 1).val := ⟨⟨_, hj1⟩, rfl⟩
  obtain ⟨b, hb⟩ : ∃ b : Fin 8192, b.val = t.val * 256 + (j 0).val := ⟨⟨_, by omega⟩, rfl⟩
  have hi : ((cfg0.win 7).blk t).view.emb j = ix2 b q :=
    funext fun a => Fin.ext (by
      match a with
      | ⟨0, _⟩ => show win0_7.index t (0 : Fin 2) * 256 + 1 * (j 0).val = b.val; omega
      | ⟨1, _⟩ => show win0_7.index t (1 : Fin 2) * 1024 + 1 * (j 1).val = q.val; omega)
  have hy : j = ix2 p q :=
    funext fun a => Fin.ext (by match a with | ⟨0, _⟩ => exact hp.symm | ⟨1, _⟩ => exact hq.symm)
  show out0_7 (iblk m c 0 t) (iblk m c 1 t) (iblk m c 2 t) (iblk m c 3 t) (iblk m c 4 t) (iblk m c 5 t) j
    = newCell (V m c main_arg0) (V m c main_arg1) (V m c main_arg2) (V m c main_v3) (V m c main_v4) (biasRow m c) (((cfg0.win 7).blk t).view.emb j)
  refine ((congrArg (out0_7 (iblk m c 0 t) (iblk m c 1 t) (iblk m c 2 t) (iblk m c 3 t) (iblk m c 4 t) (iblk m c 5 t)) hy).trans ?_).trans
    (congrArg (newCell (V m c main_arg0) (V m c main_arg1) (V m c main_arg2) (V m c main_v3) (V m c main_v4) (biasRow m c)) hi).symm
  refine cell_of_rows (iblk m c 0 t) (iblk m c 1 t) (iblk m c 2 t) (iblk m c 3 t) (iblk m c 4 t) (iblk m c 5 t)
    (V m c main_arg0) (V m c main_arg1) (V m c main_arg2) (V m c main_v3) (V m c main_v4) (biasRow m c) p q b ?_ ?_ ?_ ?_ ?_ ?_
  · intro k
    show V m c main_arg0 (((cfg0.win 0).blk t).view.emb (ix2 p k)) = V m c main_arg0 (ix2 b k)
    refine congrArg _ (funext fun a => Fin.ext ?_)
    match a with
    | ⟨0, _⟩ => show win0_0.index t (0 : Fin 2) * 256 + 1 * p.val = b.val; omega
    | ⟨1, _⟩ => show win0_0.index t (1 : Fin 2) * 1024 + 1 * k.val = k.val; omega
  · intro k
    show V m c main_arg1 (((cfg0.win 1).blk t).view.emb (ix2 p k)) = V m c main_arg1 (ix2 b k)
    refine congrArg _ (funext fun a => Fin.ext ?_)
    match a with
    | ⟨0, _⟩ => show win0_1.index t (0 : Fin 2) * 256 + 1 * p.val = b.val; omega
    | ⟨1, _⟩ => show win0_1.index t (1 : Fin 2) * 1024 + 1 * k.val = k.val; omega
  · intro g k
    show V m c main_v3 (((cfg0.win 3).blk t).view.emb (ix2 g k)) = V m c main_v3 (ix2 g k)
    refine congrArg _ (funext fun a => Fin.ext ?_)
    match a with
    | ⟨0, _⟩ => show win0_3.index t (0 : Fin 2) * 4096 + 1 * g.val = g.val; omega
    | ⟨1, _⟩ => show win0_3.index t (1 : Fin 2) * 1024 + 1 * k.val = k.val; omega
  · intro g k
    show V m c main_v4 (((cfg0.win 4).blk t).view.emb (ix2 g k)) = V m c main_v4 (ix2 g k)
    refine congrArg _ (funext fun a => Fin.ext ?_)
    match a with
    | ⟨0, _⟩ => show win0_4.index t (0 : Fin 2) * 4096 + 1 * g.val = g.val; omega
    | ⟨1, _⟩ => show win0_4.index t (1 : Fin 2) * 1024 + 1 * k.val = k.val; omega
  · intro g
    show V m c main_v2 (((cfg0.win 5).blk t).view.emb (ix2 (0 : Fin 1) g)) = V m c main_v2 (ix2 (0 : Fin 1) g)
    refine congrArg _ (funext fun a => Fin.ext ?_)
    match a with
    | ⟨0, _⟩ => show win0_5.index t (0 : Fin 2) * 1 + 1 * 0 = 0; omega
    | ⟨1, _⟩ => show win0_5.index t (1 : Fin 2) * 4096 + 1 * g.val = g.val; omega
  · show V m c main_arg2 (((cfg0.win 2).blk t).view.emb (ix2 p q)) = V m c main_arg2 (ix2 b q)
    refine congrArg _ (funext fun a => Fin.ext ?_)
    match a with
    | ⟨0, _⟩ => show win0_2.index t (0 : Fin 2) * 256 + 1 * p.val = b.val; omega
    | ⟨1, _⟩ => show win0_2.index t (1 : Fin 2) * 1024 + 1 * q.val = q.val; omega

/-- The new hidden state. -/
theorem flushed_hidden (c : Dev nD) (t : Fin cfg0.N) :
    (dats m 0 c).flushed 6 t = ((cfg0.win 6).blk t).view.read (Elt Ideal)
      (newHidden (V m c main_arg0) (V m c main_arg1) (V m c main_arg2) (V m c main_v3) (V m c main_v4) (biasRow m c)) := by
  rw [flushed6]
  obtain ⟨a0, a0', a1, a1', a2, a2', a3, a3', a4, a4', a5, a5', a6, a6', a7, a7'⟩ := idx_facts t
  have ht : t.val < 32 := lt_of_lt_of_eq t.isLt N_0
  funext j
  have hj0 : (j 0).val < 256 := (j 0).isLt
  have hj1 : (j 1).val < 1024 := (j 1).isLt
  obtain ⟨p, hp⟩ : ∃ p : Fin 256, p.val = (j 0).val := ⟨⟨_, hj0⟩, rfl⟩
  obtain ⟨q, hq⟩ : ∃ q : Fin 1024, q.val = (j 1).val := ⟨⟨_, hj1⟩, rfl⟩
  obtain ⟨b, hb⟩ : ∃ b : Fin 8192, b.val = t.val * 256 + (j 0).val := ⟨⟨_, by omega⟩, rfl⟩
  have hi : ((cfg0.win 6).blk t).view.emb j = ix2 b q :=
    funext fun a => Fin.ext (by
      match a with
      | ⟨0, _⟩ => show win0_6.index t (0 : Fin 2) * 256 + 1 * (j 0).val = b.val; omega
      | ⟨1, _⟩ => show win0_6.index t (1 : Fin 2) * 1024 + 1 * (j 1).val = q.val; omega)
  have hy : j = ix2 p q :=
    funext fun a => Fin.ext (by match a with | ⟨0, _⟩ => exact hp.symm | ⟨1, _⟩ => exact hq.symm)
  show out0_6 (iblk m c 0 t) (iblk m c 1 t) (iblk m c 2 t) (iblk m c 3 t) (iblk m c 4 t) (iblk m c 5 t) j
    = newHidden (V m c main_arg0) (V m c main_arg1) (V m c main_arg2) (V m c main_v3) (V m c main_v4) (biasRow m c) (((cfg0.win 6).blk t).view.emb j)
  refine ((congrArg (out0_6 (iblk m c 0 t) (iblk m c 1 t) (iblk m c 2 t) (iblk m c 3 t) (iblk m c 4 t) (iblk m c 5 t)) hy).trans ?_).trans
    (congrArg (newHidden (V m c main_arg0) (V m c main_arg1) (V m c main_arg2) (V m c main_v3) (V m c main_v4) (biasRow m c)) hi).symm
  refine hidden_of_rows (iblk m c 0 t) (iblk m c 1 t) (iblk m c 2 t) (iblk m c 3 t) (iblk m c 4 t) (iblk m c 5 t)
    (V m c main_arg0) (V m c main_arg1) (V m c main_arg2) (V m c main_v3) (V m c main_v4) (biasRow m c) p q b ?_ ?_ ?_ ?_ ?_ ?_
  · intro k
    show V m c main_arg0 (((cfg0.win 0).blk t).view.emb (ix2 p k)) = V m c main_arg0 (ix2 b k)
    refine congrArg _ (funext fun a => Fin.ext ?_)
    match a with
    | ⟨0, _⟩ => show win0_0.index t (0 : Fin 2) * 256 + 1 * p.val = b.val; omega
    | ⟨1, _⟩ => show win0_0.index t (1 : Fin 2) * 1024 + 1 * k.val = k.val; omega
  · intro k
    show V m c main_arg1 (((cfg0.win 1).blk t).view.emb (ix2 p k)) = V m c main_arg1 (ix2 b k)
    refine congrArg _ (funext fun a => Fin.ext ?_)
    match a with
    | ⟨0, _⟩ => show win0_1.index t (0 : Fin 2) * 256 + 1 * p.val = b.val; omega
    | ⟨1, _⟩ => show win0_1.index t (1 : Fin 2) * 1024 + 1 * k.val = k.val; omega
  · intro g k
    show V m c main_v3 (((cfg0.win 3).blk t).view.emb (ix2 g k)) = V m c main_v3 (ix2 g k)
    refine congrArg _ (funext fun a => Fin.ext ?_)
    match a with
    | ⟨0, _⟩ => show win0_3.index t (0 : Fin 2) * 4096 + 1 * g.val = g.val; omega
    | ⟨1, _⟩ => show win0_3.index t (1 : Fin 2) * 1024 + 1 * k.val = k.val; omega
  · intro g k
    show V m c main_v4 (((cfg0.win 4).blk t).view.emb (ix2 g k)) = V m c main_v4 (ix2 g k)
    refine congrArg _ (funext fun a => Fin.ext ?_)
    match a with
    | ⟨0, _⟩ => show win0_4.index t (0 : Fin 2) * 4096 + 1 * g.val = g.val; omega
    | ⟨1, _⟩ => show win0_4.index t (1 : Fin 2) * 1024 + 1 * k.val = k.val; omega
  · intro g
    show V m c main_v2 (((cfg0.win 5).blk t).view.emb (ix2 (0 : Fin 1) g)) = V m c main_v2 (ix2 (0 : Fin 1) g)
    refine congrArg _ (funext fun a => Fin.ext ?_)
    match a with
    | ⟨0, _⟩ => show win0_5.index t (0 : Fin 2) * 1 + 1 * 0 = 0; omega
    | ⟨1, _⟩ => show win0_5.index t (1 : Fin 2) * 4096 + 1 * g.val = g.val; omega
  · show V m c main_arg2 (((cfg0.win 2).blk t).view.emb (ix2 p q)) = V m c main_arg2 (ix2 b q)
    refine congrArg _ (funext fun a => Fin.ext ?_)
    match a with
    | ⟨0, _⟩ => show win0_2.index t (0 : Fin 2) * 256 + 1 * p.val = b.val; omega
    | ⟨1, _⟩ => show win0_2.index t (1 : Fin 2) * 1024 + 1 * q.val = q.val; omega

/-! ## The blocks tile the arrays -/

/-- An index of the array is in point `t`'s block of window 7 iff each coordinate is in the block's range. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v5_1).slice (win0_7.rect t)).set ↔ _
  rw [View.set_slice_whole, Rect.mem_set_unit]
  exact Iff.rfl

/-- Row `r` of the array is in the block of point `r / 256`: the 32 bands of 256 rows tile the 8192 rows. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := idx_onto ⟨(i 0).val / 256, by omega⟩
  have ht' : t.val = (i 0).val / 256 := ht
  obtain ⟨a0, a0', a1, a1', a2, a2', a3, a3', a4, a4', a5, a5', a6, a6', a7, a7'⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- An index of the array is in point `t`'s block of window 6 iff each coordinate is in the block's range. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v5_0).slice (win0_6.rect t)).set ↔ _
  rw [View.set_slice_whole, Rect.mem_set_unit]
  exact Iff.rfl

/-- Row `r` of the array is in the block of point `r / 256`: the 32 bands of 256 rows tile the 8192 rows. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ := idx_onto ⟨(i 0).val / 256, by omega⟩
  have ht' : t.val = (i 0).val / 256 := ht
  obtain ⟨a0, a0', a1, a1', a2, a2', a3, a3', a4, a4', a5, a5', a6, a6', a7, a7'⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-! ## The arrays as the region finds them -/

/-- The input-side weights the region finds are the argument's, narrowed to sixteen bits: the same extended reals. -/
theorem V_wx (c : Dev nD) : (V m c main_v3 : S4096x1024.Idx → EReal) = m ((c : Thread nD τ).loc main_arg3) := by
  dsimp only [Gen.V, Gen.hostOps0]
  after_results
  rfl

/-- The same for the hidden-side weights. -/
theorem V_wh (c : Dev nD) : (V m c main_v4 : S4096x1024.Idx → EReal) = m ((c : Thread nD τ).loc main_arg5) := by
  dsimp only [Gen.V, Gen.hostOps0]
  after_results
  rfl

/-- The bias row the region finds is the three bias vectors summed, laid out as one row. -/
theorem V_bias (c : Dev nD) :
    biasRow m c = biasSum (m ((c : Thread nD τ).loc main_arg4)) (m ((c : Thread nD τ).loc main_arg6)) (m ((c : Thread nD τ).loc main_arg7)) := by
  have e : (V m c main_v2 : S1x4096.Idx → EReal)
      = shapeCast S1x4096 (addf (F := Ideal) (s := S4096) (φ := .f32) (addf (F := Ideal) (s := S4096) (φ := .f32) (m ((c : Thread nD τ).loc main_arg4)) (m ((c : Thread nD τ).loc main_arg6))) (m ((c : Thread nD τ).loc main_arg7))) shapeCasts_S4096_S1x4096 := by
    dsimp only [Gen.V, Gen.hostOps0]
    after_results
    rfl
  funext g
  show (V m c main_v2 : S1x4096.Idx → EReal) (ix2 (0 : Fin 1) g) = _
  rw [e, shapeCast_a_1a_apply]
  rfl

/-! ## The two result arrays after the run -/

/-- The second result array ends holding the new cell state of the argument arrays. -/
theorem final_cell (c : Dev nD) :
    (dats m 0 c).arrAt 7 cfg0.N
      = newCell (m ((c : Thread nD τ).loc main_arg0)) (m ((c : Thread nD τ).loc main_arg1)) (m ((c : Thread nD τ).loc main_arg2)) (m ((c : Thread nD τ).loc main_arg3)) (m ((c : Thread nD τ).loc main_arg5))
        (biasSum (m ((c : Thread nD τ).loc main_arg4)) (m ((c : Thread nD τ).loc main_arg6)) (m ((c : Thread nD τ).loc main_arg7))) := by
  rw [(dats m 0 c).arrAt_eq_of_cover 7 _ (fun t _ => flushed_cell m c t) cover7,
    V_main_arg0, V_main_arg1, V_main_arg2, V_wx, V_wh, V_bias]

/-- The first result array ends holding the new hidden state of the argument arrays. -/
theorem final_hidden (c : Dev nD) :
    (dats m 0 c).arrAt 6 cfg0.N
      = newHidden (m ((c : Thread nD τ).loc main_arg0)) (m ((c : Thread nD τ).loc main_arg1)) (m ((c : Thread nD τ).loc main_arg2)) (m ((c : Thread nD τ).loc main_arg3)) (m ((c : Thread nD τ).loc main_arg5))
        (biasSum (m ((c : Thread nD τ).loc main_arg4)) (m ((c : Thread nD τ).loc main_arg6)) (m ((c : Thread nD τ).loc main_arg7))) := by
  rw [(dats m 0 c).arrAt_eq_of_cover 6 _ (fun t _ => flushed_hidden m c t) cover6,
    V_main_arg0, V_main_arg1, V_main_arg2, V_wx, V_wh, V_bias]

/-- Every weakly fair execution of the kernel program terminates with the two results at the specification's
    functions of the arguments, and the arguments unchanged. -/
theorem run : θ_run defs (onTc (τ := τ) (main (F := Ideal))) ⟨m, fun _ => 0, ρ⟩ fun r => ∀ c : Dev nD,
      r.2.mem ((c : Thread nD τ).loc main_v5_0) = newHidden (m ((c : Thread nD τ).loc main_arg0)) (m ((c : Thread nD τ).loc main_arg1)) (m ((c : Thread nD τ).loc main_arg2)) (m ((c : Thread nD τ).loc main_arg3)) (m ((c : Thread nD τ).loc main_arg5))
        (biasSum (m ((c : Thread nD τ).loc main_arg4)) (m ((c : Thread nD τ).loc main_arg6)) (m ((c : Thread nD τ).loc main_arg7)))
      ∧ r.2.mem ((c : Thread nD τ).loc main_v5_1) = newCell (m ((c : Thread nD τ).loc main_arg0)) (m ((c : Thread nD τ).loc main_arg1)) (m ((c : Thread nD τ).loc main_arg2)) (m ((c : Thread nD τ).loc main_arg3)) (m ((c : Thread nD τ).loc main_arg5))
        (biasSum (m ((c : Thread nD τ).loc main_arg4)) (m ((c : Thread nD τ).loc main_arg6)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_hidden m c), (h c).2.1.trans (final_cell m c), (h c).2.2⟩)
    (run_blocks m ρ)

end Cert.Lstm.Kernel

end
-- ==== Proof.lean ====
/-
  The certificate of a fused LSTM cell step against its plain reference.

  Both programs compute, from an input and a previous hidden state [8192, 1024], a previous cell state of the
  same shape, two weight matrices [4096, 1024] and three bias vectors [4096], the pre-activations
      z = e · Wxᵀ + h · Whᵀ + (b_x + b_h + b_extra),
  cut them into four bands of 1024 columns (forget, input, output, candidate), and return
      c' = σ(z_f) · c + σ(z_i) · tanh(z_c)   and   h' = σ(z_o) · tanh(c').
  The kernel does this 256 batch rows at a time, with the weights narrowed to sixteen bits and the three biases
  summed beforehand; the reference does it on whole arrays, adding the biases one after the other and spelling
  the logistic function as 1 / (1 + exp (−x)). On the extended reals a narrowing is the identity, a matrix
  product is the plain sum of products on both sides, the logistic function is that quotient, and the only law
  between the two is associativity of addition, which holds at the infinities too: the precondition is
  not used for the values.

  Proof/CellSpec.lean states the cell as one function of the argument arrays; Proof/CellReference.lean reads the
  reference's run as that function; Proof/CellPayload.lean reads the kernel body's pre-activation block at an
  index; Proof/CellBlocks.lean takes what each grid point writes back to the whole result arrays. The three
  frames are the generated ones, and the idealization rewrote nothing.
-/
import proofs.«168543_j33114197852278_2_alg».proof.Defs
import proofs.«168543_j33114197852278_2_alg».proof.Proof.Gen.Kernel
import proofs.«168543_j33114197852278_2_alg».proof.Proof.Gen.Kernel.Skeleton
import proofs.«168543_j33114197852278_2_alg».proof.Proof.Gen.Kernel.Launch
import proofs.«168543_j33114197852278_2_alg».proof.Proof.Gen.Kernel.Points
import proofs.«168543_j33114197852278_2_alg».proof.Proof.Gen.Kernel.Frame
import proofs.«168543_j33114197852278_2_alg».proof.Proof.Gen.KernelIdeal
import proofs.«168543_j33114197852278_2_alg».proof.Proof.Gen.KernelIdeal.Skeleton
import proofs.«168543_j33114197852278_2_alg».proof.Proof.Gen.KernelIdeal.Launch
import proofs.«168543_j33114197852278_2_alg».proof.Proof.Gen.KernelIdeal.Points
import proofs.«168543_j33114197852278_2_alg».proof.Proof.Gen.KernelIdeal.Frame
import proofs.«168543_j33114197852278_2_alg».proof.Proof.Gen.ReferenceIdeal
import proofs.«168543_j33114197852278_2_alg».proof.Proof.Gen.Pre_finite_inputs
import proofs.«168543_j33114197852278_2_alg».proof.Proof.Gen.KernelIdeal.Value
import proofs.«168543_j33114197852278_2_alg».proof.Proof.Gen.ReferenceIdeal.Run
import proofs.«168543_j33114197852278_2_alg».proof.Proof.Gen.ReferenceIdeal.Read
import proofs.«168543_j33114197852278_2_alg».proof.Proof.CellSpec
import proofs.«168543_j33114197852278_2_alg».proof.Proof.CellReference
import proofs.«168543_j33114197852278_2_alg».proof.Proof.CellPayload
import proofs.«168543_j33114197852278_2_alg».proof.Proof.CellBlocks
import Idealize.ShloMosaic.Adequacy
import Idealize.ShloMosaic.Init

noncomputable section

namespace Cert.Proof

open Idealize.ShloMosaic Idealize.ShloMosaic.TcCoe Idealize.SL.Sem

/-- The kernel as printed terminates without a fault and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel. -/
theorem preserves : Cert.preserves_Kernel_KernelIdeal := trivial

/-- From memories agreeing on the arguments both programs end with the new hidden state and the new cell state
    of CellSpec in their two results. -/
theorem algebraic : Cert.algebraic_KernelIdeal_ReferenceIdeal := by
  intro m ρ m' ρ' _ hagree
  refine ⟨fun c => Cert.Lstm.newHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      (Cert.Lstm.biasSum (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    fun c => Cert.Lstm.newCell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      (Cert.Lstm.biasSum (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    Cert.Lstm.Kernel.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v39_eq, Cert.Lstm.Reference.hidden_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]
  · rw [(h c).2.1, Cert.ReferenceIdeal.Read.val_main_v37_eq, Cert.Lstm.Reference.cell_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
